-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S3072x1024 : Shape := ⟨2, ![3072, 1024]⟩
abbrev S3072 : Shape := ⟨1, ![3072]⟩
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_arg5 : FVec F S1024x1024 .f32) (main_arg6 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S3072x1024 .f32) (main_arg3 : FVec F S3072 .f32) (main_arg4 : FVec F S2048x1024 .f32) (main_arg5 : FVec F S1024x1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_v13 main_v16
-- ==== Kernel.lean ====
abbrev S4096x1024 : Shape := ⟨2, ![4096, 1024]⟩
abbrev S3072x1024 : Shape := ⟨2, ![3072, 1024]⟩
abbrev S3072 : Shape := ⟨1, ![3072]⟩
abbrev S2048x1024 : Shape := ⟨2, ![2048, 1024]⟩
abbrev S1024x1024 : Shape := ⟨2, ![1024, 1024]⟩
abbrev S1024 : Shape := ⟨1, ![1024]⟩
abbrev S1024x3072 : Shape := ⟨2, ![1024, 3072]⟩
abbrev S1024x2048 : Shape := ⟨2, ![1024, 2048]⟩
abbrev S1x3072 : Shape := ⟨2, ![1, 3072]⟩
abbrev S1x1024 : Shape := ⟨2, ![1, 1024]⟩
abbrev S256x1024 : Shape := ⟨2, ![256, 1024]⟩
abbrev S256x3072 : Shape := ⟨2, ![256, 3072]⟩

abbrev nBuf : Space → Nat
  | .hbm => 17
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S3072x1024, .f32⟩
  | .hbm, ⟨3, _⟩ => ⟨S3072, .f32⟩
  | .hbm, ⟨4, _⟩ => ⟨S2048x1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S1024x2048, .f32⟩
  | .hbm, ⟨10, _⟩ => ⟨S1024x2048, .bf16⟩
  | .hbm, ⟨11, _⟩ => ⟨S1024x1024, .f32⟩
  | .hbm, ⟨12, _⟩ => ⟨S1024x1024, .bf16⟩
  | .hbm, ⟨13, _⟩ => ⟨S1024x3072, .bf16⟩
  | .hbm, ⟨14, _⟩ => ⟨S1x3072, .f32⟩
  | .hbm, ⟨15, _⟩ => ⟨S1x1024, .f32⟩
  | .hbm, ⟨16, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1x3072, .f32⟩
  | .local _ .vmem, ⟨6, _⟩ => ⟨S1024x3072, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S3072x1024_S1024x3072_1_0 : S3072x1024.Transposes [1, 0] S1024x3072
  bitsLt_bf16_f32 : FTy.bits .bf16 < FTy.bits .f32
  transposes_S2048x1024_S1024x2048_1_0 : S2048x1024.Transposes [1, 0] S1024x2048
  transposes_S1024x1024_S1024x1024_1_0 : S1024x1024.Transposes [1, 0] S1024x1024
  concatenates_S1024x2048_S1024x1024_S1024x3072_d1 : Shape.Concatenates [S1024x2048, S1024x1024] S1024x3072 1
  shapeCasts_S3072_S1x3072 : S3072.ShapeCasts S1x3072
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S3072x1024 : Shape := ⟨2, ![3072, 1024]⟩
abbrev S3072 : Shape := ⟨1, ![3072]⟩
abbrev S2048x1024 : Shape := ⟨2, ![2048, 1024]⟩
abbrev S1024x1024 : Shape := ⟨2, ![1024, 1024]⟩
abbrev S1024 : Shape := ⟨1, ![1024]⟩
abbrev S1024x3072 : Shape := ⟨2, ![1024, 3072]⟩
abbrev S4096x3072 : Shape := ⟨2, ![4096, 3072]⟩
abbrev S1x3072 : Shape := ⟨2, ![1, 3072]⟩
abbrev S1024x2048 : Shape := ⟨2, ![1024, 2048]⟩
abbrev S4096x2048 : Shape := ⟨2, ![4096, 2048]⟩
abbrev S_ : Shape := ⟨0, ![]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S3072x1024, .f32⟩
  | .hbm, ⟨3, _⟩ => ⟨S3072, .f32⟩
  | .hbm, ⟨4, _⟩ => ⟨S2048x1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S4096x3072, .f32⟩
  | .hbm, ⟨9, _⟩ => ⟨S1x3072, .f32⟩
  | .hbm, ⟨10, _⟩ => ⟨S4096x3072, .f32⟩
  | .hbm, ⟨11, _⟩ => ⟨S4096x3072, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x2048, .f32⟩
  | .hbm, ⟨16, _⟩ => ⟨S4096x2048, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  transposes_S2048x1024_S1024x2048_1_0 : S2048x1024.Transposes [1, 0] S1024x2048
  slices_S4096x2048_S4096x1024_0_0 : S4096x2048.Slices ![0, 0] S4096x1024
  slices_S4096x2048_S4096x1024_0_1024 : S4096x2048.Slices ![0, 1024] S4096x1024
  bcast_S_S4096x1024 : S_.BroadcastsInDim S4096x1024 (![] : Fin 0 → Fin S4096x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x3072_S4096x3072_1_0_0_1_n_n_wf : DotDims.WF S4096x1024 S1024x3072 S4096x3072 [1] [0] [0] [1] [] []
  dot_S4096x1024_S1024x2048_S4096x2048_1_0_0_1_n_n_wf : DotDims.WF S4096x1024 S1024x2048 S4096x2048 [1] [0] [0] [1] [] []
  dot_S4096x1024_S1024x1024_S4096x1024_1_0_0_1_n_n_wf : DotDims.WF S4096x1024 S1024x1024 S4096x1024 [1] [0] [0] [1] [] []

variable [Facts₀]

def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf
def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.GruSpec.lean ====
/-
  The GRU cell as ONE function of the seven argument arrays, entry by entry, on the extended reals.

  For a batch row `b` and a hidden unit `c`, with `x·W` written for a contraction over the 1024 input
  (or hidden) features:

    px j = (Σ k, x[b,k] · W_ih[j,k]) + b_ih[j]                      the input projection, j < 3072
    r    = σ (px c          + Σ k, h[b,k] · W_rzh[c,k])              reset gate
    z    = σ (px (1024 + c) + Σ k, h[b,k] · W_rzh[1024 + c,k])       update gate
    n    = tanh (px (2048 + c) + r · ((Σ k, h[b,k] · W_nh[c,k]) + b_nh[c]))
    out[b,c] = (1 - z) · n + z · h[b,c]

  with σ y = 1 / (1 + e^(-y)). Nothing here needs the inputs to be finite: both programs compute these
  same sums and apply the same operations to them, so no term is ever moved across a sum or cancelled.
-/
import Idealize.ShloMosaic.PureOps.Ideal
import Idealize.ShloMosaic.PureOps.Ideal.Laws
import Idealize.ShloMosaic.Lib.ValueIdx

noncomputable section

namespace Cert.Gru

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- The binary32 word of 1.0 is the real number one. -/
theorem one_word : Ideal.ofBits .f32 0x3F800000#32 = 1 := by
  simp [Ideal.ofBits, Ideal.ieee, -EReal.coe_mul]; norm_num

/-- The logistic function spelled out with the word of 1.0 in both places of `1 / (1 + e^(-y))`. -/
theorem logistic_spelled (y : EReal) :
    Ideal.logistic y
      = Ideal.div (Ideal.ofBits .f32 0x3F800000#32) (Ideal.ofBits .f32 0x3F800000#32 + Ideal.exp (-y)) := by
  rw [one_word]; rfl

/-! ## The three thirds of the stacked gate axis -/

/-- Hidden unit `c` in the reset-gate third of the 3072 stacked gate rows. -/
abbrev colR (c : Fin 1024) : Fin 3072 := ⟨c.val, by have := c.isLt; omega⟩
/-- Hidden unit `c` in the update-gate third. -/
abbrev colZ (c : Fin 1024) : Fin 3072 := ⟨1024 + c.val, by have := c.isLt; omega⟩
/-- Hidden unit `c` in the candidate third. -/
abbrev colN (c : Fin 1024) : Fin 3072 := ⟨2048 + c.val, by have := c.isLt; omega⟩
/-- Hidden unit `c` in the reset half of the 2048 stacked reset/update rows. -/
abbrev rowR (c : Fin 1024) : Fin 2048 := ⟨c.val, by have := c.isLt; omega⟩
/-- Hidden unit `c` in the update half. -/
abbrev rowZ (c : Fin 1024) : Fin 2048 := ⟨1024 + c.val, by have := c.isLt; omega⟩

/-! ## The cell -/

/-- One output entry from its nine ingredients: `one` the value of the literal 1.0; `pr pz pn` the
    input projection at the unit's reset, update and candidate rows; `qr qz qn` the hidden state's
    contraction with those rows; `bn` the candidate's hidden bias; `hc` the old state's entry. -/
def gate (one pr qr pz qz pn qn bn hc : EReal) : EReal :=
  (one - Ideal.logistic (pz + qz)) * Ideal.tanh (pn + Ideal.logistic (pr + qr) * (qn + bn))
    + Ideal.logistic (pz + qz) * hc

/-- The input projection of batch row `b` at stacked gate row `j`. -/
def inProj (x : Mat 4096 1024) (Wih : Mat 3072 1024) (bih : Row 3072) (b : Fin 4096) (j : Fin 3072) : EReal :=
  (∑ k : Fin 1024, x (ix2 b k) * Wih (ix2 j k)) + bih (ix1 j)

/-- The hidden state of batch row `b` contracted with row `j` of a weight matrix. -/
def hidDot {n : Nat} (h : Mat 4096 1024) (W : Mat n 1024) (b : Fin 4096) (j : Fin n) : EReal :=
  ∑ k : Fin 1024, h (ix2 b k) * W (ix2 j k)

/-- THE RESULT ARRAY: entry `(b, c)` of the new hidden state. -/
def out (x h : Mat 4096 1024) (Wih : Mat 3072 1024) (bih : Row 3072) (Wrzh : Mat 2048 1024)
    (Wnh : Mat 1024 1024) (bnh : Row 1024) : Mat 4096 1024 := fun i =>
  gate (Ideal.ofBits .f32 0x3F800000#32)
    (inProj x Wih bih (i 0) (colR (i 1))) (hidDot h Wrzh (i 0) (rowR (i 1)))
    (inProj x Wih bih (i 0) (colZ (i 1))) (hidDot h Wrzh (i 0) (rowZ (i 1)))
    (inProj x Wih bih (i 0) (colN (i 1))) (hidDot h Wnh (i 0) (i 1))
    (bnh (ix1 (i 1))) (h i)

end Cert.Gru

end
-- ==== Proof.GruRef.lean ====
/-
  The reference program computes the GRU cell of the specification, entry by entry.

  Its projections are host contractions against transposed weights, so entry `(b, j)` of `x · W_ihᵀ` is
  `Σ k, x[b,k] · W_ih[j,k]`; the gates are columns `c`, `1024 + c`, `2048 + c` of the 3072 stacked ones
  and columns `c`, `1024 + c` of the 2048 stacked reset/update ones; and the sigmoid is spelled
  `1 / (1 + e^(-y))` with the literal 1.0 in both places, which is the logistic function.
-/
import proofs.«111879_j62027917689188_2_alg».proof.Proof.Gen.ReferenceIdeal.Read
import proofs.«111879_j62027917689188_2_alg».proof.Proof.GruSpec

noncomputable section

namespace Cert.Gru.Ref

open Cert.ReferenceIdeal Cert.ReferenceIdeal.Read Idealize.ShloMosaic Idealize.ShloMosaic.ValueIdx Cert.Gru

variable (x0 x1 : Mat 4096 1024) (x2 : Mat 3072 1024) (x3 : Row 3072) (x4 : Mat 2048 1024)
  (x5 : Mat 1024 1024) (x6 : Row 1024)

/-- Entry `(b, j)` of `x · W_ihᵀ + b_ih` is the input projection of row `b` at stacked gate row `j`. -/
theorem proj_at (b : Fin 4096) (j : Fin 3072) :
    val_main_v4 (F := Ideal) x0 x2 x3 (ix2 b j) = inProj x0 x2 x3 b j := by
  rw [val_main_v4_apply, val_main_v1_apply, val_main_v3_apply, val_main_v2_apply]
  simp only [val_main_v0_apply]
  have el : ∀ k : Fin 1024, lidx_main_v1 (ix2 b j) k = ix2 b k := fun k => funext fun a => by
    match a with | ⟨0, _⟩ => rfl | ⟨1, _⟩ => rfl
  have er : ∀ k : Fin 1024, idx_main_v0 (ridx_main_v1 (ix2 b j) k) = ix2 j k := fun k => funext fun a => by
    match a with | ⟨0, _⟩ => rfl | ⟨1, _⟩ => rfl
  have eb : idx_main_v2 (idx_main_v3 (ix2 b j)) = ix1 j := funext fun a => by
    match a with | ⟨0, _⟩ => rfl
  simp only [el, er, eb]
  rfl

/-- Entry `(b, j)` of `h · W_rzhᵀ` is row `b` of the state contracted with row `j` of `W_rzh`. -/
theorem rz_at (b : Fin 4096) (j : Fin 2048) :
    val_main_v9 (F := Ideal) x1 x4 (ix2 b j) = hidDot x1 x4 b j := by
  rw [val_main_v9_apply]
  simp only [val_main_v8_apply]
  have el : ∀ k : Fin 1024, lidx_main_v9 (ix2 b j) k = ix2 b k := fun k => funext fun a => by
    match a with | ⟨0, _⟩ => rfl | ⟨1, _⟩ => rfl
  have er : ∀ k : Fin 1024, idx_main_v8 (ridx_main_v9 (ix2 b j) k) = ix2 j k := fun k => funext fun a => by
    match a with | ⟨0, _⟩ => rfl | ⟨1, _⟩ => rfl
  simp only [el, er]
  rfl

/-- Entry `(b, c)` of `h · W_nhᵀ` is row `b` of the state contracted with row `c` of `W_nh`. -/
theorem nh_at (b : Fin 4096) (c : Fin 1024) :
    val_main_v27 (F := Ideal) x1 x5 (ix2 b c) = hidDot x1 x5 b c := by
  rw [val_main_v27_apply]
  simp only [val_main_v26_apply]
  have el : ∀ k : Fin 1024, lidx_main_v27 (ix2 b c) k = ix2 b k := fun k => funext fun a => by
    match a with | ⟨0, _⟩ => rfl | ⟨1, _⟩ => rfl
  have er : ∀ k : Fin 1024, idx_main_v26 (ridx_main_v27 (ix2 b c) k) = ix2 c k := fun k => funext fun a => by
    match a with | ⟨0, _⟩ => rfl | ⟨1, _⟩ => rfl
  simp only [el, er]
  rfl

/-- The reset gate: the spelled-out sigmoid of the two projections' reset entries. -/
theorem reset_at (b : Fin 4096) (c : Fin 1024) :
    val_main_v18 (F := Ideal) x0 x1 x2 x3 x4 (ix2 b c)
      = Ideal.logistic (inProj x0 x2 x3 b (colR c) + hidDot x1 x4 b (rowR c)) := by
  have e5 : idx_main_v5 (ix2 b c) = ix2 b (colR c) := funext fun a => by
    match a with | ⟨0, _⟩ => rfl | ⟨1, _⟩ => rfl
  have e10 : idx_main_v10 (ix2 b c) = ix2 b (rowR c) := funext fun a => by
    match a with | ⟨0, _⟩ => rfl | ⟨1, _⟩ => rfl
  rw [val_main_v18_apply, val_main_v17_apply, val_main_cst_0_apply, val_main_v16_apply, val_main_v15_apply,
    val_main_cst_apply, val_main_v14_apply, val_main_v13_apply, val_main_v12_apply, val_main_v5_apply,
    val_main_v10_apply, e5, e10, proj_at, rz_at, logistic_spelled]
  rfl

/-- The update gate: the same at the update entries. -/
theorem update_at (b : Fin 4096) (c : Fin 1024) :
    val_main_v25 (F := Ideal) x0 x1 x2 x3 x4 (ix2 b c)
      = Ideal.logistic (inProj x0 x2 x3 b (colZ c) + hidDot x1 x4 b (rowZ c)) := by
  have e6 : idx_main_v6 (ix2 b c) = ix2 b (colZ c) := funext fun a => by
    match a with | ⟨0, _⟩ => rfl | ⟨1, _⟩ => rfl
  have e11 : idx_main_v11 (ix2 b c) = ix2 b (rowZ c) := funext fun a => by
    match a with | ⟨0, _⟩ => rfl | ⟨1, _⟩ => rfl
  rw [val_main_v25_apply, val_main_v24_apply, val_main_cst_2_apply, val_main_v23_apply, val_main_v22_apply,
    val_main_cst_1_apply, val_main_v21_apply, val_main_v20_apply, val_main_v19_apply, val_main_v6_apply,
    val_main_v11_apply, e6, e11, proj_at, rz_at, logistic_spelled]
  rfl

/-- THE REFERENCE'S RESULT is the specification's array. -/
theorem result_eq :
    val_main_v38 (F := Ideal) x0 x1 x2 x3 x4 x5 x6 = out x0 x1 x2 x3 x4 x5 x6 := by
  funext i
  obtain ⟨b, c, rfl⟩ : ∃ (b : Fin 4096) (c : Fin 1024), i = ix2 b c := ⟨i 0, i 1, eq_ix2 i⟩
  have e7 : idx_main_v7 (ix2 b c) = ix2 b (colN c) := funext fun a => by
    match a with | ⟨0, _⟩ => rfl | ⟨1, _⟩ => rfl
  have e29 : idx_main_v28 (idx_main_v29 (ix2 b c)) = ix1 c := funext fun a => by
    match a with | ⟨0, _⟩ => rfl
  rw [val_main_v38_apply, val_main_v36_apply, val_main_v37_apply, val_main_v35_apply, val_main_v34_apply,
    val_main_cst_3_apply, val_main_v33_apply, val_main_v32_apply, val_main_v31_apply, val_main_v30_apply,
    val_main_v29_apply, val_main_v28_apply, val_main_v7_apply, e7, e29, update_at, reset_at, proj_at, nh_at]
  rfl

end Cert.Gru.Ref

end
-- ==== Proof.GruPayload.lean ====
/-
  What the kernel body stores, read at one entry of its [256, 1024] block.

  The body forms two [256, 3072] products of its row blocks with the two resident [1024, 3072] weight
  operands, adds the input bias row to the first, cuts each into thirds along the gate axis, and applies
  the cell's arithmetic entry by entry. So entry `(p, q)` of what it stores is the cell's `gate` of: the
  first product (plus bias) at columns `q`, `1024 + q`, `2048 + q` of row `p`; the second product at the
  same three columns; the candidate bias at `q`; and the state block's entry `(p, q)`.
  Each product entry is a plain sum over the 1024 contracted features (the narrowing of the operands to
  bf16 changes nothing on the extended reals, and the accumulator starts at zero).
-/
import proofs.«111879_j62027917689188_2_alg».proof.Proof.Gen.KernelIdeal.Skeleton
import proofs.«111879_j62027917689188_2_alg».proof.Proof.GruSpec
import Idealize.ShloMosaic.Lib.Pipeline.Value
import Idealize.ShloMosaic.Lib.ValueIdx
import Idealize.ShloMosaic.PureOps.Ideal.Laws

noncomputable section

namespace Cert.Gru.Body

open Cert.KernelIdeal Cert.KernelIdeal.Gen Idealize.ShloMosaic Idealize.ShloMosaic.ValueIdx Cert.Gru

/-- Row `p` of a [256, 1024] block contracted with column `j` of a [1024, 3072] operand. -/
def blkDot (a : FVec Ideal S256x1024 .f32) (w : FVec Ideal S1024x3072 .bf16) (p : Fin 256) (j : Fin 3072) : EReal :=
  ∑ k : Fin 1024, a (ix2 p k) * w (ix2 k j)

theorem lhs_row (i : S256x3072.Idx) (r : dot_S256x1024_S1024x3072_S256x3072_1_0_0_1_n_n.contr.Idx) :
    (dot_S256x1024_S1024x3072_S256x3072_1_0_0_1_n_n.lhsIdx i r 0).val = (i 0).val := by
  unfold DotDims.lhsIdx
  rw [dif_neg (show ¬(0 : Fin S256x1024.rank) ∈ dot_S256x1024_S1024x3072_S256x3072_1_0_0_1_n_n.lhsBatch by decide),
    dif_pos (show (0 : Fin S256x1024.rank) ∈ dot_S256x1024_S1024x3072_S256x3072_1_0_0_1_n_n.lhsNonContracting by decide)]
  rfl

theorem rhs_col (i : S256x3072.Idx) (r : dot_S256x1024_S1024x3072_S256x3072_1_0_0_1_n_n.contr.Idx) :
    (dot_S256x1024_S1024x3072_S256x3072_1_0_0_1_n_n.rhsIdx i r 1).val = (i 1).val := by
  unfold DotDims.rhsIdx
  rw [dif_neg (show ¬(1 : Fin S1024x3072.rank) ∈ dot_S256x1024_S1024x3072_S256x3072_1_0_0_1_n_n.rhsBatch by decide),
    dif_pos (show (1 : Fin S1024x3072.rank) ∈ dot_S256x1024_S1024x3072_S256x3072_1_0_0_1_n_n.rhsNonContracting by decide)]
  rfl

/-- The body's matrix product into a zero accumulator, at entry `(p, j)`: the sum over the contracted axis. -/
theorem matmul_at (a : FVec Ideal S256x1024 .f32) (w : FVec Ideal S1024x3072 .bf16) (p : Fin 256) (j : Fin 3072) :
    matmul (F := Ideal) (φ₁ := .bf16) (φ₂ := .bf16) dot_S256x1024_S1024x3072_S256x3072_1_0_0_1_n_n none (truncf .bf16 a bitsLt_bf16_f32)
        (shapeCast S1024x3072 w shapeCasts_S1024x3072_S1024x3072) (constant (F := Ideal) S256x3072 .f32 0x00000000#32) (ix2 p j)
      = blkDot a w p j := by
  simp only [matmul]
  rw [Ideal.matmul_constant_zero_apply,
    ← Equiv.sum_comp (ValueIdx.contrEquiv1 dot_S256x1024_S1024x3072_S256x3072_1_0_0_1_n_n 1024 rfl rfl).symm]
  unfold blkDot
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 p j)
      ((ValueIdx.contrEquiv1 dot_S256x1024_S1024x3072_S256x3072_1_0_0_1_n_n 1024 rfl rfl).symm k) = ix2 p k :=
    funext fun a => Fin.ext (by
      match a with
      | ⟨0, _⟩ => exact lhs_row _ _
      | ⟨1, _⟩ => exact (dot_S256x1024_S1024x3072_S256x3072_1_0_0_1_n_n.lhsIdx_val_of_single rfl _ _).trans hk)
  have er : dot_S256x1024_S1024x3072_S256x3072_1_0_0_1_n_n.rhsIdx (ix2 p j)
      ((ValueIdx.contrEquiv1 dot_S256x1024_S1024x3072_S256x3072_1_0_0_1_n_n 1024 rfl rfl).symm k) = ix2 k j :=
    funext fun a => Fin.ext (by
      match a with
      | ⟨0, _⟩ => exact (dot_S256x1024_S1024x3072_S256x3072_1_0_0_1_n_n.rhsIdx_val_of_single rfl _ _).trans hk
      | ⟨1, _⟩ => exact rhs_col _ _)
  rw [el, er, shapeCast_self]
  rfl

/-! ## The thirds of the gate axis, and the bias rows -/

/-- The first third of a [256, 3072] value at `(p, q)` is the value at column `q`. -/
theorem third_r (v : FVec Ideal S256x3072 .f32) (p : Fin 256) (q : Fin 1024) :
    extractStridedSlice S256x1024 ![0, 0] v slices_S256x3072_o0_0_S256x1024 (ix2 p q) = v (ix2 p (colR q)) :=
  extractStridedSlice_apply _ v _ _ _ fun a => by
    match a with
    | ⟨0, _⟩ => show p.val = 0 + p.val; omega
    | ⟨1, _⟩ => show q.val = 0 + q.val; omega

/-- The second third at `(p, q)` is the value at column `1024 + q`. -/
theorem third_z (v : FVec Ideal S256x3072 .f32) (p : Fin 256) (q : Fin 1024) :
    extractStridedSlice S256x1024 ![0, 1024] v slices_S256x3072_o0_1024_S256x1024 (ix2 p q) = v (ix2 p (colZ q)) :=
  extractStridedSlice_apply _ v _ _ _ fun a => by
    match a with
    | ⟨0, _⟩ => show p.val = 0 + p.val; omega
    | ⟨1, _⟩ => show 1024 + q.val = 1024 + q.val; rfl

/-- The last third at `(p, q)` is the value at column `2048 + q`. -/
theorem third_n (v : FVec Ideal S256x3072 .f32) (p : Fin 256) (q : Fin 1024) :
    extractStridedSlice S256x1024 ![0, 2048] v slices_S256x3072_o0_2048_S256x1024 (ix2 p q) = v (ix2 p (colN q)) :=
  extractStridedSlice_apply _ v _ _ _ fun a => by
    match a with
    | ⟨0, _⟩ => show p.val = 0 + p.val; omega
    | ⟨1, _⟩ => show 2048 + q.val = 2048 + q.val; rfl

/-- The input bias row spread down the 256 rows: entry `(p, j)` is the row's entry `j`. -/
theorem bias_in_at (b : FVec Ideal S1x3072 .f32) (p : Fin 256) (j : Fin 3072) :
    broadcastTo S256x3072 (shapeCast S1x3072 b shapeCasts_S1x3072_S1x3072) broadcasts_S1x3072_S256x3072 (ix2 p j)
      = b (ix2 (0 : Fin 1) j) := by
  rw [shapeCast_self]
  exact broadcastTo_apply b _ _ _ fun a => by
    match a with
    | ⟨0, _⟩ => show 0 = if (1 : Nat) = 1 then 0 else p.val; rw [if_pos rfl]
    | ⟨1, _⟩ => show j.val = if (3072 : Nat) = 1 then 0 else j.val; rw [if_neg (by decide)]

/-- The candidate bias row spread down the 256 rows: entry `(p, q)` is the row's entry `q`. -/
theorem bias_hid_at (b : FVec Ideal S1x1024 .f32) (p : Fin 256) (q : Fin 1024) :
    broadcastTo S256x1024 (shapeCast S1x1024 b shapeCasts_S1x1024_S1x1024) broadcasts_S1x1024_S256x1024 (ix2 p q)
      = b (ix2 (0 : Fin 1) q) := by
  rw [shapeCast_self]
  exact broadcastTo_apply b _ _ _ fun a => by
    match a with
    | ⟨0, _⟩ => show 0 = if (1 : Nat) = 1 then 0 else p.val; rw [if_pos rfl]
    | ⟨1, _⟩ => show q.val = if (1024 : Nat) = 1 then 0 else q.val; rw [if_neg (by decide)]

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-! ## The stored value at an entry -/

/-- ENTRY `(p, q)` OF WHAT THE BODY STORES is the cell's `gate` of the two products' entries at the unit's three
    gate columns, the candidate bias and the state block's entry. -/
theorem payload_at (x0 x1 : FVec Ideal S256x1024 .f32) (w1 w2 : FVec Ideal S1024x3072 .bf16)
    (b1 : FVec Ideal S1x3072 .f32) (b2 : FVec Ideal S1x1024 .f32) (p : Fin 256) (q : Fin 1024) :
    k0_pay1 (F := Ideal) x0 x1 w1 w2 b1 b2 (ix2 p q)
      = gate (Ideal.ofBits .f32 0x3F800000#32)
          (blkDot x0 w1 p (colR q) + b1 (ix2 (0 : Fin 1) (colR q))) (blkDot x1 w2 p (colR q))
          (blkDot x0 w1 p (colZ q) + b1 (ix2 (0 : Fin 1) (colZ q))) (blkDot x1 w2 p (colZ q))
          (blkDot x0 w1 p (colN q) + b1 (ix2 (0 : Fin 1) (colN q))) (blkDot x1 w2 p (colN q))
          (b2 (ix2 (0 : Fin 1) q)) (x1 (ix2 p q)) := by
  unfold k0_pay1 gate
  simp only [addf_apply, mulf_apply, subf_apply, broadcast_apply, logistic_at, tanh_at, third_r, third_z, third_n,
    bias_in_at, bias_hid_at, matmul_at]
  rfl

end Cert.Gru.Body

end
-- ==== Proof.GruOperands.lean ====
/-
  The four operand arrays that the operations before the call build from the arguments, read at an entry.

  * the input weights transposed and narrowed: entry `(k, j)` is `W_ih[j, k]`;
  * the two hidden weight matrices, each transposed and narrowed, set side by side along the second axis:
    entry `(k, j)` is `W_rzh[j, k]` for `j < 2048` and `W_nh[j - 2048, k]` from there on;
  * the two bias vectors given a leading unit axis: entry `(0, j)` is the vector's entry `j`.
  Narrowing to bf16 is the identity on the extended reals.
-/
import proofs.«111879_j62027917689188_2_alg».proof.Proof.Gen.KernelIdeal.Frame
import proofs.«111879_j62027917689188_2_alg».proof.Proof.GruSpec
import Idealize.ShloMosaic.Lib.StableHlo.Run
import Idealize.ShloMosaic.Lib.Pipeline.Value
import Idealize.ShloMosaic.Lib.ValueIdx

noncomputable section

namespace Cert.Gru.Opnd

open Cert.KernelIdeal Cert.KernelIdeal.Gen Idealize.ShloMosaic Idealize.ShloMosaic.TcCoe Idealize.SL.Sem
open Idealize.ShloMosaic.StableHlo Idealize.ShloMosaic.ValueIdx Cert.Gru

variable (m : (ℓ : Loc nD τ sig) → Buf (Elt Ideal) ℓ) (c : Dev nD)

/-- The transposed input weights, as the call finds them. -/
theorem wih_term : (V m c main_v1 : S1024x3072.Idx → EReal)
    = truncf (F := Ideal) .bf16 (transpose S1024x3072 [1, 0] (m ((c : Thread nD τ).loc main_arg2)) transposes_S3072x1024_S1024x3072_1_0) bitsLt_bf16_f32 := by
  dsimp only [V, hostOps0]; after_results

/-- The fused hidden weights, as the call finds them. -/
theorem wh_term : (V m c main_v6 : S1024x3072.Idx → EReal)
    = concatenate S1024x3072 1
        [⟨S1024x2048, truncf (F := Ideal) .bf16 (transpose S1024x2048 [1, 0] (m ((c : Thread nD τ).loc main_arg4)) transposes_S2048x1024_S1024x2048_1_0) bitsLt_bf16_f32⟩,
         ⟨S1024x1024, truncf (F := Ideal) .bf16 (transpose S1024x1024 [1, 0] (m ((c : Thread nD τ).loc main_arg5)) transposes_S1024x1024_S1024x1024_1_0) bitsLt_bf16_f32⟩]
        concatenates_S1024x2048_S1024x1024_S1024x3072_d1 := by
  dsimp only [V, hostOps0]; after_results

/-- The input bias as a one-row matrix, as the call finds it. -/
theorem bih_term : (V m c main_v7 : S1x3072.Idx → EReal)
    = shapeCast S1x3072 (m ((c : Thread nD τ).loc main_arg3)) shapeCasts_S3072_S1x3072 := by
  dsimp only [V, hostOps0]; after_results; rfl

/-- The candidate's hidden bias as a one-row matrix, as the call finds it. -/
theorem bnh_term : (V m c main_v8 : S1x1024.Idx → EReal)
    = shapeCast S1x1024 (m ((c : Thread nD τ).loc main_arg6)) shapeCasts_S1024_S1x1024 := by
  dsimp only [V, hostOps0]; after_results; rfl

/-! ## Read at an entry -/

/-- Entry `(k, j)` of the transposed input weights is `W_ih[j, k]`. -/
theorem wih_at (k : Fin 1024) (j : Fin 3072) :
    (V m c main_v1 : S1024x3072.Idx → EReal) (ix2 k j)
      = (m ((c : Thread nD τ).loc main_arg2) : S3072x1024.Idx → EReal) (ix2 j k) := by
  rw [wih_term]
  exact transpose_apply [1, 0] _ transposes_S3072x1024_S1024x3072_1_0 (ix2 k j) (ix2 j k) (fun b => match b with
    | ⟨0, _⟩ => rfl
    | ⟨1, _⟩ => rfl)

/-- Entry `(k, j)` of the fused hidden weights, for `j` below 2048, is `W_rzh[j, k]`. -/
theorem wh_at_rz (k : Fin 1024) (j : Fin 3072) (r : Fin 2048) (hj : j.val = r.val) :
    (V m c main_v6 : S1024x3072.Idx → EReal) (ix2 k j)
      = (m ((c : Thread nD τ).loc main_arg4) : S2048x1024.Idx → EReal) (ix2 r k) := by
  rw [wh_term]
  refine (concatenate_pair_apply_left (t := S1024x3072) (s₁ := S1024x2048) (s₂ := S1024x1024) 1 _ _
    concatenates_S1024x2048_S1024x1024_S1024x3072_d1 (ix2 k j) rfl (ix2 k r) (fun b => by
      match b with
      | ⟨0, _⟩ => rfl
      | ⟨1, _⟩ => exact hj.symm)).trans ?_
  exact transpose_apply [1, 0] _ transposes_S2048x1024_S1024x2048_1_0 (ix2 k r) (ix2 r k) (fun b => match b with
    | ⟨0, _⟩ => rfl
    | ⟨1, _⟩ => rfl)

/-- Entry `(k, 2048 + q)` of the fused hidden weights is `W_nh[q, k]`. -/
theorem wh_at_n (k : Fin 1024) (j : Fin 3072) (q : Fin 1024) (hj : j.val = 2048 + q.val) :
    (V m c main_v6 : S1024x3072.Idx → EReal) (ix2 k j)
      = (m ((c : Thread nD τ).loc main_arg5) : S1024x1024.Idx → EReal) (ix2 q k) := by
  rw [wh_term]
  refine (concatenate_pair_apply_right (t := S1024x3072) (s₁ := S1024x2048) (s₂ := S1024x1024) 1 _ _
    concatenates_S1024x2048_S1024x1024_S1024x3072_d1 (ix2 k j) rfl rfl (ix2 k q) (fun b hb => by
      match b with
      | ⟨0, _⟩ => rfl
      | ⟨1, _⟩ => exact absurd rfl hb) (by show q.val + 2048 = j.val; omega)).trans ?_
  exact transpose_apply [1, 0] _ transposes_S1024x1024_S1024x1024_1_0 (ix2 k q) (ix2 q k) (fun b => match b with
    | ⟨0, _⟩ => rfl
    | ⟨1, _⟩ => rfl)

/-- Entry `(0, j)` of the input bias row is `b_ih[j]`. -/
theorem bih_at (j : Fin 3072) :
    (V m c main_v7 : S1x3072.Idx → EReal) (ix2 (0 : Fin 1) j)
      = (m ((c : Thread nD τ).loc main_arg3) : S3072.Idx → EReal) (ix1 j) := by
  rw [bih_term]
  exact shapeCast_apply _ shapeCasts_S3072_S1x3072 (ix2 (0 : Fin 1) j) (ix1 j) (by
    rw [Shape.rowMajor_val_one, Shape.rowMajor_val_two]
    show j.val = 0 * 3072 + j.val
    omega)

/-- Entry `(0, q)` of the candidate bias row is `b_nh[q]`. -/
theorem bnh_at (q : Fin 1024) :
    (V m c main_v8 : S1x1024.Idx → EReal) (ix2 (0 : Fin 1) q)
      = (m ((c : Thread nD τ).loc main_arg6) : S1024.Idx → EReal) (ix1 q) := by
  rw [bnh_term]
  exact shapeCast_apply _ shapeCasts_S1024_S1x1024 (ix2 (0 : Fin 1) q) (ix1 q) (by
    rw [Shape.rowMajor_val_one, Shape.rowMajor_val_two]
    show q.val = 0 * 1024 + q.val
    omega)

end Cert.Gru.Opnd

end
-- ==== Proof.GruBlocks.lean ====
/-
  From the 16 row blocks to the whole result array.

  Grid point `t` works on rows `256·t … 256·t + 255`: it is handed those rows of `x` and of `h` and the four
  resident operands whole, and writes back those rows of the result. Entry `(p, q)` of what it writes is
  therefore the cell of batch row `256·t + p` and hidden unit `q`: the body's products run over the same
  1024 features of that batch row, against rows of the weight matrices picked out by the gate column.
  The 16 blocks tile the 4096 rows, so the array ends as the specification's, everywhere.
-/
import proofs.«111879_j62027917689188_2_alg».proof.Proof.Gen.KernelIdeal.Value
import proofs.«111879_j62027917689188_2_alg».proof.Proof.GruSpec
import proofs.«111879_j62027917689188_2_alg».proof.Proof.GruPayload
import proofs.«111879_j62027917689188_2_alg».proof.Proof.GruOperands
import Idealize.ShloMosaic.Lib.Pipeline.Value

noncomputable section

namespace Cert.Gru.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Gru Cert.Gru.Body Cert.Gru.Opnd

variable (m : (ℓ : Loc nD τ sig) → Buf (Elt Ideal) ℓ) (ρ : Dev nD → PrngReg)

theorem zero_offsets : (![0, 0] : Fin 2 → Nat) = fun _ => 0 := funext fun a => by fin_cases a <;> rfl

/-- Where each operand's block sits at grid point `t`, decided over the 16 points: the two row-block
    inputs and the output at block `(t, 0)`, the four resident operands at block `(0, 0)`. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The batch row that row `p` of point `t`'s block is. -/
abbrev rowOf (t : Fin cfg0.N) (p : Fin 256) : Fin 4096 :=
  ⟨t.val * 256 + p.val, by have h1 := t.isLt; have h2 : cfg0.N = 16 := N_0; have h3 := p.isLt; omega⟩

/-! ## Each input block as entries of its array -/

/-- The block of `x` at point `t`: its entry `(p, k)` is `x[256·t + p, k]`. -/
theorem x_blk (c : Dev nD) (t : Fin cfg0.N) (p : Fin 256) (k : Fin 1024) :
    (iblk m c 0 t : FVec Ideal S256x1024 .f32) (ix2 p k)
      = (m ((c : Thread nD τ).loc main_arg0) : S4096x1024.Idx → EReal) (ix2 (rowOf t p) k) := by
  obtain ⟨e0, e1, -⟩ := block_positions t
  unfold iblk
  rw [View.read_apply]
  show V m c main_arg0 _ = _
  rw [V_main_arg0]
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- The block of `h` at point `t`: its entry `(p, k)` is `h[256·t + p, k]`. -/
theorem h_blk (c : Dev nD) (t : Fin cfg0.N) (p : Fin 256) (k : Fin 1024) :
    (iblk m c 1 t : FVec Ideal S256x1024 .f32) (ix2 p k)
      = (m ((c : Thread nD τ).loc main_arg1) : S4096x1024.Idx → EReal) (ix2 (rowOf t p) k) := by
  obtain ⟨-, -, e0, e1, -⟩ := block_positions t
  unfold iblk
  rw [View.read_apply]
  show V m c main_arg1 _ = _
  rw [V_main_arg1]
  congr 1
  funext a
  apply Fin.ext
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- The resident input weights: the block is the whole operand, so entry `(k, j)` is `W_ih[j, k]`. -/
theorem wih_blk (c : Dev nD) (t : Fin cfg0.N) (k : Fin 1024) (j : Fin 3072) :
    (iblk m c 2 t : FVec Ideal S1024x3072 .bf16) (ix2 k j)
      = (m ((c : Thread nD τ).loc main_arg2) : S3072x1024.Idx → EReal) (ix2 j k) := by
  obtain ⟨-, -, -, -, e0, e1, -⟩ := block_positions t
  refine Eq.trans ?_ (wih_at m c k j)
  unfold iblk
  rw [View.read_apply]
  show V m c main_v1 _ = V m c main_v1 _
  congr 1
  funext a
  apply Fin.ext
  match a with
  | ⟨0, _⟩ => show win0_2.index t (0 : Fin 2) * 1024 + 1 * k.val = k.val; rw [e0]; omega
  | ⟨1, _⟩ => show win0_2.index t (1 : Fin 2) * 3072 + 1 * j.val = j.val; rw [e1]; omega

/-- The resident input bias row: entry `(0, j)` is `b_ih[j]`. -/
theorem bih_blk (c : Dev nD) (t : Fin cfg0.N) (j : Fin 3072) :
    (iblk m c 3 t : FVec Ideal S1x3072 .f32) (ix2 (0 : Fin 1) j)
      = (m ((c : Thread nD τ).loc main_arg3) : S3072.Idx → EReal) (ix1 j) := by
  obtain ⟨-, -, -, -, -, -, e0, e1, -⟩ := block_positions t
  refine Eq.trans ?_ (bih_at m c j)
  unfold iblk
  rw [View.read_apply]
  show V m c main_v7 _ = V m c main_v7 _
  congr 1
  funext a
  apply Fin.ext
  match a with
  | ⟨0, _⟩ => show win0_3.index t (0 : Fin 2) * 1 + 1 * 0 = 0; rw [e0]
  | ⟨1, _⟩ => show win0_3.index t (1 : Fin 2) * 3072 + 1 * j.val = j.val; rw [e1]; omega

/-- The resident fused hidden weights at a reset/update column: entry `(k, j)` is `W_rzh[j, k]`. -/
theorem wh_blk_rz (c : Dev nD) (t : Fin cfg0.N) (k : Fin 1024) (j : Fin 3072) (r : Fin 2048) (hj : j.val = r.val) :
    (iblk m c 4 t : FVec Ideal S1024x3072 .bf16) (ix2 k j)
      = (m ((c : Thread nD τ).loc main_arg4) : S2048x1024.Idx → EReal) (ix2 r k) := by
  obtain ⟨-, -, -, -, -, -, -, -, e0, e1, -⟩ := block_positions t
  refine Eq.trans ?_ (wh_at_rz m c k j r hj)
  unfold iblk
  rw [View.read_apply]
  show V m c main_v6 _ = V m c main_v6 _
  congr 1
  funext a
  apply Fin.ext
  match a with
  | ⟨0, _⟩ => show win0_4.index t (0 : Fin 2) * 1024 + 1 * k.val = k.val; rw [e0]; omega
  | ⟨1, _⟩ => show win0_4.index t (1 : Fin 2) * 3072 + 1 * j.val = j.val; rw [e1]; omega

/-- The same at a candidate column: entry `(k, 2048 + q)` is `W_nh[q, k]`. -/
theorem wh_blk_n (c : Dev nD) (t : Fin cfg0.N) (k : Fin 1024) (j : Fin 3072) (q : Fin 1024) (hj : j.val = 2048 + q.val) :
    (iblk m c 4 t : FVec Ideal S1024x3072 .bf16) (ix2 k j)
      = (m ((c : Thread nD τ).loc main_arg5) : S1024x1024.Idx → EReal) (ix2 q k) := by
  obtain ⟨-, -, -, -, -, -, -, -, e0, e1, -⟩ := block_positions t
  refine Eq.trans ?_ (wh_at_n m c k j q hj)
  unfold iblk
  rw [View.read_apply]
  show V m c main_v6 _ = V m c main_v6 _
  congr 1
  funext a
  apply Fin.ext
  match a with
  | ⟨0, _⟩ => show win0_4.index t (0 : Fin 2) * 1024 + 1 * k.val = k.val; rw [e0]; omega
  | ⟨1, _⟩ => show win0_4.index t (1 : Fin 2) * 3072 + 1 * j.val = j.val; rw [e1]; omega

/-- The resident candidate bias row: entry `(0, q)` is `b_nh[q]`. -/
theorem bnh_blk (c : Dev nD) (t : Fin cfg0.N) (q : Fin 1024) :
    (iblk m c 5 t : FVec Ideal S1x1024 .f32) (ix2 (0 : Fin 1) q)
      = (m ((c : Thread nD τ).loc main_arg6) : S1024.Idx → EReal) (ix1 q) := by
  obtain ⟨-, -, -, -, -, -, -, -, -, -, e0, e1, -⟩ := block_positions t
  refine Eq.trans ?_ (bnh_at m c q)
  unfold iblk
  rw [View.read_apply]
  show V m c main_v8 _ = V m c main_v8 _
  congr 1
  funext a
  apply Fin.ext
  match a with
  | ⟨0, _⟩ => show win0_5.index t (0 : Fin 2) * 1 + 1 * 0 = 0; rw [e0]
  | ⟨1, _⟩ => show win0_5.index t (1 : Fin 2) * 1024 + 1 * q.val = q.val; rw [e1]; omega

/-! ## The ingredients of one entry -/

/-- The body's first product plus the bias row, at block row `p` and gate column `j`, is the input projection
    of batch row `256·t + p` at `j`. -/
theorem in_proj_blk (c : Dev nD) (t : Fin cfg0.N) (p : Fin 256) (j : Fin 3072) :
    blkDot (iblk m c 0 t) (iblk m c 2 t) p j + (iblk m c 3 t : FVec Ideal S1x3072 .f32) (ix2 (0 : Fin 1) j)
      = inProj (m ((c : Thread nD τ).loc main_arg0)) (m ((c : Thread nD τ).loc main_arg2))
          (m ((c : Thread nD τ).loc main_arg3)) (rowOf t p) j := by
  unfold blkDot inProj
  refine congrArg₂ (· + ·) (Finset.sum_congr rfl fun k _ => ?_) (bih_blk m c t j)
  exact congrArg₂ (· * ·) (x_blk m c t p k) (wih_blk m c t k j)

/-- The body's second product at a reset/update column `j` is the state's row contracted with row `j` of `W_rzh`. -/
theorem hid_rz_blk (c : Dev nD) (t : Fin cfg0.N) (p : Fin 256) (j : Fin 3072) (r : Fin 2048) (hj : j.val = r.val) :
    blkDot (iblk m c 1 t) (iblk m c 4 t) p j
      = hidDot (m ((c : Thread nD τ).loc main_arg1)) (m ((c : Thread nD τ).loc main_arg4)) (rowOf t p) r := by
  unfold blkDot hidDot
  exact Finset.sum_congr rfl fun k _ => congrArg₂ (· * ·) (h_blk m c t p k) (wh_blk_rz m c t k j r hj)

/-- The body's second product at candidate column `2048 + q` is the state's row contracted with row `q` of `W_nh`. -/
theorem hid_n_blk (c : Dev nD) (t : Fin cfg0.N) (p : Fin 256) (q : Fin 1024) :
    blkDot (iblk m c 1 t) (iblk m c 4 t) p (colN q)
      = hidDot (m ((c : Thread nD τ).loc main_arg1)) (m ((c : Thread nD τ).loc main_arg5)) (rowOf t p) q := by
  unfold blkDot hidDot
  exact Finset.sum_congr rfl fun k _ => congrArg₂ (· * ·) (h_blk m c t p k) (wh_blk_n m c t k (colN q) q rfl)

/-! ## What a point writes back, and the whole array -/

/-- The result array: the specification's, of the seven arguments as launched. -/
abbrev result (c : Dev nD) : S4096x1024.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Entry `(p, q)` of what point `t` stores is the result at batch row `256·t + p`, hidden unit `q`. -/
theorem entry_eq (c : Dev nD) (t : Fin cfg0.N) (p : Fin 256) (q : Fin 1024) :
    k0_pay1 (F := Ideal) (iblk m c 0 t) (iblk m c 1 t) (iblk m c 2 t) (iblk m c 4 t) (iblk m c 3 t) (iblk m c 5 t) (ix2 p q)
      = result m c (ix2 (rowOf t p) q) := by
  refine (payload_at (iblk m c 0 t) (iblk m c 1 t) (iblk m c 2 t) (iblk m c 4 t) (iblk m c 3 t) (iblk m c 5 t) p q).trans ?_
  rw [in_proj_blk m c t p (colR q), in_proj_blk m c t p (colZ q), in_proj_blk m c t p (colN q),
    hid_rz_blk m c t p (colR q) (rowR q) rfl, hid_rz_blk m c t p (colZ q) (rowZ q) rfl, hid_n_blk m c t p q,
    bnh_blk m c t q, h_blk m c t p q]
  rfl

/-- The same at any index of the block, the result read where the output's block puts that index. -/
theorem entry_at (c : Dev nD) (t : Fin cfg0.N) (y : S256x1024.Idx) :
    k0_pay1 (F := Ideal) (iblk m c 0 t) (iblk m c 1 t) (iblk m c 2 t) (iblk m c 4 t) (iblk m c 3 t) (iblk m c 5 t) y
      = result m c (((cfg0.win 6).blk t).view.emb y) := by
  obtain ⟨p, q, rfl⟩ : ∃ (p : Fin 256) (q : Fin 1024), y = ix2 p q := ⟨y 0, y 1, eq_ix2 y⟩
  obtain ⟨-, -, -, -, -, -, -, -, -, -, -, -, e0, e1⟩ := block_positions t
  have he : (((cfg0.win 6).blk t).view.emb (ix2 p q) : S4096x1024.Idx) = ix2 (rowOf t p) q := by
    funext a
    apply Fin.ext
    match a with
    | ⟨0, _⟩ => show win0_6.index t (0 : Fin 2) * 256 + 1 * p.val = t.val * 256 + p.val; rw [e0]; omega
    | ⟨1, _⟩ => show win0_6.index t (1 : Fin 2) * 1024 + 1 * q.val = q.val; rw [e1]; omega
  rw [he]
  exact entry_eq m c t p q

/-- WHAT POINT `t` WRITES BACK is its block of the result array. -/
theorem flushed_eq (c : Dev nD) (t : Fin cfg0.N) :
    (dats m 0 c).flushed 6 t = ((cfg0.win 6).blk t).view.read (Elt Ideal) (result m c) := by
  rw [flushed6]
  unfold out0_6
  rw [View.canon_unit_zero zero_offsets]
  simp only [View.ld_unit_zero (S := S256x1024) zero_offsets, View.ld_unit_zero (S := S1024x3072) zero_offsets,
    View.ld_unit_zero (S := S1x3072) zero_offsets, View.ld_unit_zero (S := S1x1024) zero_offsets]
  funext y
  exact entry_at m c t y

/-- An index of the array is in point `t`'s block iff each coordinate is in the block's range on its axis. -/
theorem mem_blk (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v9).slice (win0_6.rect t)).set ↔ _
  rw [View.set_slice_whole, Rect.mem_set_unit]
  exact Iff.rfl

/-- Every index of the array is in the block of the point that owns its row: point `row / 256`. -/
theorem cover (i : S4096x1024.Idx) :
    ∃ t : Fin cfg0.N, (cfg0.win 6).flush t = true ∧ i ∈ ((cfg0.win 6).blk t).view.set := by
  have h0 : (i 0).val < 4096 := (i 0).isLt
  have h1 : (i 1).val < 1024 := (i 1).isLt
  have hN : cfg0.N = 16 := N_0
  have ht : (i 0).val / 256 < cfg0.N := by rw [hN]; omega
  obtain ⟨-, -, -, -, -, -, -, -, -, -, -, -, e0, e1⟩ := block_positions ⟨(i 0).val / 256, ht⟩
  refine ⟨⟨(i 0).val / 256, ht⟩, flush0_6 _, ?_⟩
  rw [mem_blk]
  intro a
  match a with
  | ⟨0, _⟩ =>
    show win0_6.index ⟨(i 0).val / 256, ht⟩ (0 : Fin 2) * 256 ≤ (i 0).val
      ∧ (i 0).val < win0_6.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_6.index ⟨(i 0).val / 256, ht⟩ (1 : Fin 2) * 1024 ≤ (i 1).val
      ∧ (i 1).val < win0_6.index ⟨(i 0).val / 256, ht⟩ (1 : Fin 2) * 1024 + 1024
    rw [e1]
    omega

/-- THE ARRAY after the run is the specification's result of the arguments. -/
theorem final (c : Dev nD) : (dats m 0 c).arrAt 6 cfg0.N = result m c :=
  (dats m 0 c).arrAt_eq_of_cover 6 (result m c) (fun t _ => flushed_eq m c t) cover

/-- The kernel's run: the result array at the specification's function of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Gru.Blocks

end
-- ==== Proof.lean ====
/-
  A GRU cell computed two ways, equal on the extended reals.

  Both programs take a batch of inputs `x` and states `h` (4096 rows of 1024 features), input weights and bias
  `W_ih`, `b_ih` (3072 stacked gate rows), hidden weights `W_rzh` (reset and update gates, 2048 rows) and `W_nh`,
  `b_nh` (the candidate), and return the new state
      r = σ(x·W_ihᵀ + b_ih + h·W_rzhᵀ) on the reset rows,   z = the same on the update rows,
      n = tanh(x·W_ihᵀ + b_ih on the candidate rows + r · (h·W_nhᵀ + b_nh)),   out = (1 - z)·n + z·h.
  The reference spells this with three host contractions and the sigmoid written out as `1 / (1 + e^(-y))`.
  The kernel works on 16 blocks of 256 batch rows; in each it multiplies the block of `x` by the transposed input
  weights and the block of `h` by ONE matrix holding the transposed `W_rzh` and `W_nh` side by side, cuts both
  products into thirds along the gate axis, and applies the logistic function and `tanh` entry by entry.
  On the extended reals the two agree entry by entry: column `j` of the fused product is the contraction with
  row `j` of `W_rzh` (for `j < 2048`) or row `j - 2048` of `W_nh`, the very sums the reference takes; narrowing
  the matrix operands to bf16 is the identity there; and the logistic function IS `1 / (1 + e^(-y))`, the word of
  1.0 being the number one. No term is moved across a sum and nothing is cancelled, so the precondition that the
  inputs be finite is never opened.

  Modules: GruSpec (the cell as one function of the arguments), GruRef (the reference's term is that function),
  GruPayload (what the kernel body stores, at an entry), GruOperands (the operand arrays built before the call),
  GruBlocks (from the 16 blocks to the whole array, and the kernel's run). Here: the five claims.
-/
import proofs.«111879_j62027917689188_2_alg».proof.Defs
import proofs.«111879_j62027917689188_2_alg».proof.Proof.Gen.Kernel
import proofs.«111879_j62027917689188_2_alg».proof.Proof.Gen.Kernel.Skeleton
import proofs.«111879_j62027917689188_2_alg».proof.Proof.Gen.Kernel.Launch
import proofs.«111879_j62027917689188_2_alg».proof.Proof.Gen.Kernel.Points
import proofs.«111879_j62027917689188_2_alg».proof.Proof.Gen.Kernel.Frame
import proofs.«111879_j62027917689188_2_alg».proof.Proof.Gen.KernelIdeal
import proofs.«111879_j62027917689188_2_alg».proof.Proof.Gen.KernelIdeal.Skeleton
import proofs.«111879_j62027917689188_2_alg».proof.Proof.Gen.KernelIdeal.Launch
import proofs.«111879_j62027917689188_2_alg».proof.Proof.Gen.KernelIdeal.Points
import proofs.«111879_j62027917689188_2_alg».proof.Proof.Gen.KernelIdeal.Frame
import proofs.«111879_j62027917689188_2_alg».proof.Proof.Gen.ReferenceIdeal
import proofs.«111879_j62027917689188_2_alg».proof.Proof.Gen.Pre_finite_inputs
import proofs.«111879_j62027917689188_2_alg».proof.Proof.Gen.KernelIdeal.Value
import proofs.«111879_j62027917689188_2_alg».proof.Proof.Gen.ReferenceIdeal.Run
import proofs.«111879_j62027917689188_2_alg».proof.Proof.Gen.ReferenceIdeal.Read
import proofs.«111879_j62027917689188_2_alg».proof.Proof.GruRef
import proofs.«111879_j62027917689188_2_alg».proof.Proof.GruBlocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both runs end with the result array at the specification's function of the arguments: the kernel's by its 16
    blocks tiling the array, the reference's by reading its operations' term entry by entry. -/
theorem algebraic : Cert.algebraic_KernelIdeal_ReferenceIdeal := by
  intro m ρ m' ρ' _ hagree
  refine ⟨fun c => Cert.Gru.Blocks.result m c, Cert.Gru.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v38_eq, Cert.Gru.Ref.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
